-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024 .f32) (main_arg16 : FVec F S1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S8192x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.BitsFrame.lean ====
/-
  The LSTM-cell program as compiled runs to the end: the ten host operations that stack the four gate
  weight matrices, transpose them, round them and add the two stacked bias vectors, then the one
  pipelined region over 32 row blocks of 256 rows. Stated at any float instance: every argument array
  ends as it was launched, and each result array ends at the pipeline's write-backs of what the body
  leaves in the result windows' staging buffers — for the hidden state the product of the output gate
  with tanh of the new cell state, for the cell state forget·c + input·candidate, both as functions of
  the six input blocks of the point.
-/
import proofs.«109990_j37099927503216_2_alg».proof.Proof.Gen.Kernel.Launch
import proofs.«109990_j37099927503216_2_alg».proof.Proof.Gen.Kernel.Skeleton
import proofs.«109990_j37099927503216_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region starts: the launch memory after the ten host operations. -/
abbrev entry (c : Dev nD) (b : Ref sig .tc) : Buf (Elt F) ((c : Thread nD τ).loc b) :=
  StableHlo.after hostOps0 (fun b => m (c, b)) b

/-- None of the ten operations allocates a buffer. -/
theorem hostOps0_fresh : (hostOps0 : List (HloOp τ sig (Elt F))).Forall fun op => op.fresh = ∅ := by
  simp only [List.Forall]; repeat' constructor

/-- @main is the ten host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the ten operations writes is found as launched: the operations write
    `main_v0` … `main_v9` and nothing else. -/
local macro "host_keeps" : tactic => `(tactic|
  (refine StableHlo.after_of_forall_not_mem _ _ (List.forall_iff_forall_mem.mp ?_)
   simp only [hostOps0, List.Forall, StableHlo.nary_writes, StableHlo.unary_writes, StableHlo.binary_writes,
     StableHlo.reshape_writes, Finset.mem_singleton]
   repeat' apply And.intro
   all_goals exact StableHlo.devRef_ne_of_ne (by decide)))

theorem entry_arg0 (c : Dev nD) : entry m c main_arg0 = m ((c : Thread nD τ).loc main_arg0) := by host_keeps
theorem entry_arg1 (c : Dev nD) : entry m c main_arg1 = m ((c : Thread nD τ).loc main_arg1) := by host_keeps
theorem entry_arg2 (c : Dev nD) : entry m c main_arg2 = m ((c : Thread nD τ).loc main_arg2) := by host_keeps
theorem entry_arg3 (c : Dev nD) : entry m c main_arg3 = m ((c : Thread nD τ).loc main_arg3) := by host_keeps
theorem entry_arg4 (c : Dev nD) : entry m c main_arg4 = m ((c : Thread nD τ).loc main_arg4) := by host_keeps
theorem entry_arg5 (c : Dev nD) : entry m c main_arg5 = m ((c : Thread nD τ).loc main_arg5) := by host_keeps
theorem entry_arg6 (c : Dev nD) : entry m c main_arg6 = m ((c : Thread nD τ).loc main_arg6) := by host_keeps
theorem entry_arg7 (c : Dev nD) : entry m c main_arg7 = m ((c : Thread nD τ).loc main_arg7) := by host_keeps
theorem entry_arg8 (c : Dev nD) : entry m c main_arg8 = m ((c : Thread nD τ).loc main_arg8) := by host_keeps
theorem entry_arg9 (c : Dev nD) : entry m c main_arg9 = m ((c : Thread nD τ).loc main_arg9) := by host_keeps
theorem entry_arg10 (c : Dev nD) : entry m c main_arg10 = m ((c : Thread nD τ).loc main_arg10) := by host_keeps
theorem entry_arg11 (c : Dev nD) : entry m c main_arg11 = m ((c : Thread nD τ).loc main_arg11) := by host_keeps
theorem entry_arg12 (c : Dev nD) : entry m c main_arg12 = m ((c : Thread nD τ).loc main_arg12) := by host_keeps
theorem entry_arg13 (c : Dev nD) : entry m c main_arg13 = m ((c : Thread nD τ).loc main_arg13) := by host_keeps
theorem entry_arg14 (c : Dev nD) : entry m c main_arg14 = m ((c : Thread nD τ).loc main_arg14) := by host_keeps
theorem entry_arg15 (c : Dev nD) : entry m c main_arg15 = m ((c : Thread nD τ).loc main_arg15) := by host_keeps
theorem entry_arg16 (c : Dev nD) : entry m c main_arg16 = m ((c : Thread nD τ).loc main_arg16) := by host_keeps
theorem entry_arg17 (c : Dev nD) : entry m c main_arg17 = m ((c : Thread nD τ).loc main_arg17) := by host_keeps
theorem entry_arg18 (c : Dev nD) : entry m c main_arg18 = m ((c : Thread nD τ).loc main_arg18) := by host_keeps

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point — fetched there, or still
    holding the same block from an earlier point (the three resident windows: the two weight matrices and
    the bias row are fetched once) — for proof data whose array is the region-entry contents and whose
    body leaves the block in place. -/
local macro "staged_block" w:term : tactic => `(tactic|
  (intro dat hA hafter t d
   exact (dat.before_in_eq_fetched $w rfl (fun _ => rfl) (fun _ _ _ => rfl) (fun t => by rw [hafter]; unfold Dat.blockOf blockAt; rw [hA]; try rfl) t d).trans
     (by unfold Dat.fetched Dat.blockOf blockAt; rw [hA]; try rfl)))

theorem staged0 {c : Dev nD} : ∀ (dat : Dat τ (Elt F) Unit ℕ (UR sig nD τ) ℕ cfg0 c) (hA : dat.A 0 = entry m c (Pipeline.arrRef spec0 0))
    (hafter : ∀ t, dat.after 0 t = blockAt m c 0 t) (t : Fin cfg0.N) (d), dat.before 0 t d = blockAt m c 0 t := by staged_block 0
theorem staged1 {c : Dev nD} : ∀ (dat : Dat τ (Elt F) Unit ℕ (UR sig nD τ) ℕ cfg0 c) (hA : dat.A 1 = entry m c (Pipeline.arrRef spec0 1))
    (hafter : ∀ t, dat.after 1 t = blockAt m c 1 t) (t : Fin cfg0.N) (d), dat.before 1 t d = blockAt m c 1 t := by staged_block 1
theorem staged2 {c : Dev nD} : ∀ (dat : Dat τ (Elt F) Unit ℕ (UR sig nD τ) ℕ cfg0 c) (hA : dat.A 2 = entry m c (Pipeline.arrRef spec0 2))
    (hafter : ∀ t, dat.after 2 t = blockAt m c 2 t) (t : Fin cfg0.N) (d), dat.before 2 t d = blockAt m c 2 t := by staged_block 2
theorem staged3 {c : Dev nD} : ∀ (dat : Dat τ (Elt F) Unit ℕ (UR sig nD τ) ℕ cfg0 c) (hA : dat.A 3 = entry m c (Pipeline.arrRef spec0 3))
    (hafter : ∀ t, dat.after 3 t = blockAt m c 3 t) (t : Fin cfg0.N) (d), dat.before 3 t d = blockAt m c 3 t := by staged_block 3
theorem staged4 {c : Dev nD} : ∀ (dat : Dat τ (Elt F) Unit ℕ (UR sig nD τ) ℕ cfg0 c) (hA : dat.A 4 = entry m c (Pipeline.arrRef spec0 4))
    (hafter : ∀ t, dat.after 4 t = blockAt m c 4 t) (t : Fin cfg0.N) (d), dat.before 4 t d = blockAt m c 4 t := by staged_block 4
theorem staged5 {c : Dev nD} : ∀ (dat : Dat τ (Elt F) Unit ℕ (UR sig nD τ) ℕ cfg0 c) (hA : dat.A 5 = entry m c (Pipeline.arrRef spec0 5))
    (hafter : ∀ t, dat.after 5 t = blockAt m c 5 t) (t : Fin cfg0.N) (d), dat.before 5 t d = blockAt m c 5 t := by staged_block 5

/-! ## The body's accesses: each is a whole staging buffer -/

abbrev rows : Rect S256x1024 := Rect.unit (s := S256x1024) ![0, 0] S256x1024.size inb_S256x1024_S256x1024_0_0
abbrev weights : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The hidden-state window's buffer after the body: its one store, of `o · tanh c'`, over the input blocks. -/
def hiddenOut (x h cp : Vec F S256x1024 .f32) (wx wh : Vec F S1024x4096 .bf16) (b : Vec F S1x4096 .f32) : Vec F S256x1024 .f32 :=
  View.canon [⟨rows, k0_pay3 (View.ld x rows) (View.ld h rows) (View.ld wx weights) (View.ld wh weights) (View.ld b biasRow) (View.ld cp rows)⟩]

/-- The cell-state window's buffer after the body: its one store, of `f · c + i · g`, over the input blocks. -/
def cellOut (x h cp : Vec F S256x1024 .f32) (wx wh : Vec F S1024x4096 .bf16) (b : Vec F S1x4096 .f32) : Vec F S256x1024 .f32 :=
  View.canon [⟨rows, k0_pay2 (View.ld x rows) (View.ld h rows) (View.ld wx weights) (View.ld wh weights) (View.ld b biasRow) (View.ld cp rows)⟩]

/-- One store of the whole buffer covers it. -/
theorem rows_cover (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 1000000 in
/-- The body on whole staging memrefs, the six inputs' at contents it only reads and the two outputs' at anything,
    returns with the inputs' as they were and the outputs' at `hiddenOut` / `cellOut` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cp : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hiddenOut x h cp wx wh b) ∗ owns (c : Thread nD τ) arg8 fullShare (cellOut x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (rows_cover _)
  iexists _; isplitr
  swap; · iexact H8
  ipureintro
  try dsimp only
  exact View.read_writes_eq_canon _ _ _ (rows_cover _)

/-! ## The pipeline's proof data -/

/-- On core `c`: the arrays as the region finds them; after the body at point `t` each input's buffer at its
    block and each output's at the body's result of the six input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t
    = hiddenOut (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t
    = cellOut (blockAt m c 0 t) (blockAt m c 1 t) (blockAt m c 2 t) (blockAt m c 3 t) (blockAt m c 4 t) (blockAt m c 5 t) := by dsimp only [dats]

theorem before0 (c : Dev nD) (t : Fin cfg0.N) (d) : (dats m 0 c).before 0 t d = blockAt m c 0 t := staged0 m (dats m 0 c) (A_eq m c 0) (after0 m c) t d
theorem before1 (c : Dev nD) (t : Fin cfg0.N) (d) : (dats m 0 c).before 1 t d = blockAt m c 1 t := staged1 m (dats m 0 c) (A_eq m c 1) (after1 m c) t d
theorem before2 (c : Dev nD) (t : Fin cfg0.N) (d) : (dats m 0 c).before 2 t d = blockAt m c 2 t := staged2 m (dats m 0 c) (A_eq m c 2) (after2 m c) t d
theorem before3 (c : Dev nD) (t : Fin cfg0.N) (d) : (dats m 0 c).before 3 t d = blockAt m c 3 t := staged3 m (dats m 0 c) (A_eq m c 3) (after3 m c) t d
theorem before4 (c : Dev nD) (t : Fin cfg0.N) (d) : (dats m 0 c).before 4 t d = blockAt m c 4 t := staged4 m (dats m 0 c) (A_eq m c 4) (after4 m c) t d
theorem before5 (c : Dev nD) (t : Fin cfg0.N) (d) : (dats m 0 c).before 5 t d = blockAt m c 5 t := staged5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at
    the proof data's write-backs and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- After the run each argument array is as launched: the three row-blocked inputs are staged and never
    written back; the sixteen weight and bias arguments are read by host operations only. -/
theorem args_kept (r : PUnit × MemSt nD τ sig (Elt F)) (h : Pipeline.FramePost cfgs (dats m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (entry_arg0 m c))),
   ((h c).1 1).trans (((dats m 0 c).arrAt_in 1 rfl _).trans ((A_eq m c 1).trans (entry_arg1 m c))),
   ((h c).1 2).trans (((dats m 0 c).arrAt_in 2 rfl _).trans ((A_eq m c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c),
   ((h c).2 main_arg11 (Pipeline.mem_restRefs_of main_arg11 (by decide) (by decide))).trans (entry_arg11 m c),
   ((h c).2 main_arg12 (Pipeline.mem_restRefs_of main_arg12 (by decide) (by decide))).trans (entry_arg12 m c),
   ((h c).2 main_arg13 (Pipeline.mem_restRefs_of main_arg13 (by decide) (by decide))).trans (entry_arg13 m c),
   ((h c).2 main_arg14 (Pipeline.mem_restRefs_of main_arg14 (by decide) (by decide))).trans (entry_arg14 m c),
   ((h c).2 main_arg15 (Pipeline.mem_restRefs_of main_arg15 (by decide) (by decide))).trans (entry_arg15 m c),
   ((h c).2 main_arg16 (Pipeline.mem_restRefs_of main_arg16 (by decide) (by decide))).trans (entry_arg16 m c),
   ((h c).2 main_arg17 (Pipeline.mem_restRefs_of main_arg17 (by decide) (by decide))).trans (entry_arg17 m c),
   ((h c).2 main_arg18 (Pipeline.mem_restRefs_of main_arg18 (by decide) (by decide))).trans (entry_arg18 m c)⟩

/-- The frame: the program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_main m ρ)

end Cert.Kernel.Cell

end
-- ==== Proof.IdealFrame.lean ====
/-
  The idealized LSTM-cell program runs to the end: the ten host operations that stack the four gate
  weight matrices, transpose them, round them and add the two stacked bias vectors, then the one
  pipelined region over 32 row blocks of 256 rows. Stated at any float instance: every argument array
  ends as it was launched, and each result array ends at the pipeline's write-backs of what the body
  leaves in the result windows' staging buffers — for the hidden state the product of the output gate
  with tanh of the new cell state, for the cell state forget·c + input·candidate, both as functions of
  the six input blocks of the point.
-/
import proofs.«109990_j37099927503216_2_alg».proof.Proof.Gen.KernelIdeal.Launch
import proofs.«109990_j37099927503216_2_alg».proof.Proof.Gen.KernelIdeal.Skeleton
import proofs.«109990_j37099927503216_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region starts: the launch memory after the ten host operations. -/
abbrev entry (c : Dev nD) (b : Ref sig .tc) : Buf (Elt F) ((c : Thread nD τ).loc b) :=
  StableHlo.after hostOps0 (fun b => m (c, b)) b

/-- None of the ten operations allocates a buffer. -/
theorem hostOps0_fresh : (hostOps0 : List (HloOp τ sig (Elt F))).Forall fun op => op.fresh = ∅ := by
  simp only [List.Forall]; repeat' constructor

/-- @main is the ten host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the ten operations writes is found as launched: the operations write
    `main_v0` … `main_v9` and nothing else. -/
local macro "host_keeps" : tactic => `(tactic|
  (refine StableHlo.after_of_forall_not_mem _ _ (List.forall_iff_forall_mem.mp ?_)
   simp only [hostOps0, List.Forall, StableHlo.nary_writes, StableHlo.unary_writes, StableHlo.binary_writes,
     StableHlo.reshape_writes, Finset.mem_singleton]
   repeat' apply And.intro
   all_goals exact StableHlo.devRef_ne_of_ne (by decide)))

theorem entry_arg0 (c : Dev nD) : entry m c main_arg0 = m ((c : Thread nD τ).loc main_arg0) := by host_keeps
theorem entry_arg1 (c : Dev nD) : entry m c main_arg1 = m ((c : Thread nD τ).loc main_arg1) := by host_keeps
theorem entry_arg2 (c : Dev nD) : entry m c main_arg2 = m ((c : Thread nD τ).loc main_arg2) := by host_keeps
theorem entry_arg3 (c : Dev nD) : entry m c main_arg3 = m ((c : Thread nD τ).loc main_arg3) := by host_keeps
theorem entry_arg4 (c : Dev nD) : entry m c main_arg4 = m ((c : Thread nD τ).loc main_arg4) := by host_keeps
theorem entry_arg5 (c : Dev nD) : entry m c main_arg5 = m ((c : Thread nD τ).loc main_arg5) := by host_keeps
theorem entry_arg6 (c : Dev nD) : entry m c main_arg6 = m ((c : Thread nD τ).loc main_arg6) := by host_keeps
theorem entry_arg7 (c : Dev nD) : entry m c main_arg7 = m ((c : Thread nD τ).loc main_arg7) := by host_keeps
theorem entry_arg8 (c : Dev nD) : entry m c main_arg8 = m ((c : Thread nD τ).loc main_arg8) := by host_keeps
theorem entry_arg9 (c : Dev nD) : entry m c main_arg9 = m ((c : Thread nD τ).loc main_arg9) := by host_keeps
theorem entry_arg10 (c : Dev nD) : entry m c main_arg10 = m ((c : Thread nD τ).loc main_arg10) := by host_keeps
theorem entry_arg11 (c : Dev nD) : entry m c main_arg11 = m ((c : Thread nD τ).loc main_arg11) := by host_keeps
theorem entry_arg12 (c : Dev nD) : entry m c main_arg12 = m ((c : Thread nD τ).loc main_arg12) := by host_keeps
theorem entry_arg13 (c : Dev nD) : entry m c main_arg13 = m ((c : Thread nD τ).loc main_arg13) := by host_keeps
theorem entry_arg14 (c : Dev nD) : entry m c main_arg14 = m ((c : Thread nD τ).loc main_arg14) := by host_keeps
theorem entry_arg15 (c : Dev nD) : entry m c main_arg15 = m ((c : Thread nD τ).loc main_arg15) := by host_keeps
theorem entry_arg16 (c : Dev nD) : entry m c main_arg16 = m ((c : Thread nD τ).loc main_arg16) := by host_keeps
theorem entry_arg17 (c : Dev nD) : entry m c main_arg17 = m ((c : Thread nD τ).loc main_arg17) := by host_keeps
theorem entry_arg18 (c : Dev nD) : entry m c main_arg18 = m ((c : Thread nD τ).loc main_arg18) := by host_keeps

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point — fetched there, or still
    holding the same block from an earlier point (the three resident windows: the two weight matrices and
    the bias row are fetched once) — for proof data whose array is the region-entry contents and whose
    body leaves the block in place. -/
local macro "staged_block" w:term : tactic => `(tactic|
  (intro dat hA hafter t d
   exact (dat.before_in_eq_fetched $w rfl (fun _ => rfl) (fun _ _ _ => rfl) (fun t => by rw [hafter]; unfold Dat.blockOf blockAt; rw [hA]; try rfl) t d).trans
     (by unfold Dat.fetched Dat.blockOf blockAt; rw [hA]; try rfl)))

theorem staged0 {c : Dev nD} : ∀ (dat : Dat τ (Elt F) Unit ℕ (UR sig nD τ) ℕ cfg0 c) (hA : dat.A 0 = entry m c (Pipeline.arrRef spec0 0))
    (hafter : ∀ t, dat.after 0 t = blockAt m c 0 t) (t : Fin cfg0.N) (d), dat.before 0 t d = blockAt m c 0 t := by staged_block 0
theorem staged1 {c : Dev nD} : ∀ (dat : Dat τ (Elt F) Unit ℕ (UR sig nD τ) ℕ cfg0 c) (hA : dat.A 1 = entry m c (Pipeline.arrRef spec0 1))
    (hafter : ∀ t, dat.after 1 t = blockAt m c 1 t) (t : Fin cfg0.N) (d), dat.before 1 t d = blockAt m c 1 t := by staged_block 1
theorem staged2 {c : Dev nD} : ∀ (dat : Dat τ (Elt F) Unit ℕ (UR sig nD τ) ℕ cfg0 c) (hA : dat.A 2 = entry m c (Pipeline.arrRef spec0 2))
    (hafter : ∀ t, dat.after 2 t = blockAt m c 2 t) (t : Fin cfg0.N) (d), dat.before 2 t d = blockAt m c 2 t := by staged_block 2
theorem staged3 {c : Dev nD} : ∀ (dat : Dat τ (Elt F) Unit ℕ (UR sig nD τ) ℕ cfg0 c) (hA : dat.A 3 = entry m c (Pipeline.arrRef spec0 3))
    (hafter : ∀ t, dat.after 3 t = blockAt m c 3 t) (t : Fin cfg0.N) (d), dat.before 3 t d = blockAt m c 3 t := by staged_block 3
theorem staged4 {c : Dev nD} : ∀ (dat : Dat τ (Elt F) Unit ℕ (UR sig nD τ) ℕ cfg0 c) (hA : dat.A 4 = entry m c (Pipeline.arrRef spec0 4))
    (hafter : ∀ t, dat.after 4 t = blockAt m c 4 t) (t : Fin cfg0.N) (d), dat.before 4 t d = blockAt m c 4 t := by staged_block 4
theorem staged5 {c : Dev nD} : ∀ (dat : Dat τ (Elt F) Unit ℕ (UR sig nD τ) ℕ cfg0 c) (hA : dat.A 5 = entry m c (Pipeline.arrRef spec0 5))
    (hafter : ∀ t, dat.after 5 t = blockAt m c 5 t) (t : Fin cfg0.N) (d), dat.before 5 t d = blockAt m c 5 t := by staged_block 5

/-! ## The body's accesses: each is a whole staging buffer -/

abbrev rows : Rect S256x1024 := Rect.unit (s := S256x1024) ![0, 0] S256x1024.size inb_S256x1024_S256x1024_0_0
abbrev weights : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The hidden-state window's buffer after the body: its one store, of `o · tanh c'`, over the input blocks. -/
def hiddenOut (x h cp : Vec F S256x1024 .f32) (wx wh : Vec F S1024x4096 .bf16) (b : Vec F S1x4096 .f32) : Vec F S256x1024 .f32 :=
  View.canon [⟨rows, k0_pay3 (View.ld x rows) (View.ld h rows) (View.ld wx weights) (View.ld wh weights) (View.ld b biasRow) (View.ld cp rows)⟩]

/-- The cell-state window's buffer after the body: its one store, of `f · c + i · g`, over the input blocks. -/
def cellOut (x h cp : Vec F S256x1024 .f32) (wx wh : Vec F S1024x4096 .bf16) (b : Vec F S1x4096 .f32) : Vec F S256x1024 .f32 :=
  View.canon [⟨rows, k0_pay2 (View.ld x rows) (View.ld h rows) (View.ld wx weights) (View.ld wh weights) (View.ld b biasRow) (View.ld cp rows)⟩]

/-- One store of the whole buffer covers it. -/
theorem rows_cover (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 1000000 in
/-- The body on whole staging memrefs, the six inputs' at contents it only reads and the two outputs' at anything,
    returns with the inputs' as they were and the outputs' at `hiddenOut` / `cellOut` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cp : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hiddenOut x h cp wx wh b) ∗ owns (c : Thread nD τ) arg8 fullShare (cellOut x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (rows_cover _)
  iexists _; isplitr
  swap; · iexact H8
  ipureintro
  try dsimp only
  exact View.read_writes_eq_canon _ _ _ (rows_cover _)

/-! ## The pipeline's proof data -/

/-- On core `c`: the arrays as the region finds them; after the body at point `t` each input's buffer at its
    block and each output's at the body's result of the six input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t
    = hiddenOut (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t
    = cellOut (blockAt m c 0 t) (blockAt m c 1 t) (blockAt m c 2 t) (blockAt m c 3 t) (blockAt m c 4 t) (blockAt m c 5 t) := by dsimp only [dats]

theorem before0 (c : Dev nD) (t : Fin cfg0.N) (d) : (dats m 0 c).before 0 t d = blockAt m c 0 t := staged0 m (dats m 0 c) (A_eq m c 0) (after0 m c) t d
theorem before1 (c : Dev nD) (t : Fin cfg0.N) (d) : (dats m 0 c).before 1 t d = blockAt m c 1 t := staged1 m (dats m 0 c) (A_eq m c 1) (after1 m c) t d
theorem before2 (c : Dev nD) (t : Fin cfg0.N) (d) : (dats m 0 c).before 2 t d = blockAt m c 2 t := staged2 m (dats m 0 c) (A_eq m c 2) (after2 m c) t d
theorem before3 (c : Dev nD) (t : Fin cfg0.N) (d) : (dats m 0 c).before 3 t d = blockAt m c 3 t := staged3 m (dats m 0 c) (A_eq m c 3) (after3 m c) t d
theorem before4 (c : Dev nD) (t : Fin cfg0.N) (d) : (dats m 0 c).before 4 t d = blockAt m c 4 t := staged4 m (dats m 0 c) (A_eq m c 4) (after4 m c) t d
theorem before5 (c : Dev nD) (t : Fin cfg0.N) (d) : (dats m 0 c).before 5 t d = blockAt m c 5 t := staged5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at
    the proof data's write-backs and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- After the run each argument array is as launched: the three row-blocked inputs are staged and never
    written back; the sixteen weight and bias arguments are read by host operations only. -/
theorem args_kept (r : PUnit × MemSt nD τ sig (Elt F)) (h : Pipeline.FramePost cfgs (dats m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (entry_arg0 m c))),
   ((h c).1 1).trans (((dats m 0 c).arrAt_in 1 rfl _).trans ((A_eq m c 1).trans (entry_arg1 m c))),
   ((h c).1 2).trans (((dats m 0 c).arrAt_in 2 rfl _).trans ((A_eq m c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c),
   ((h c).2 main_arg11 (Pipeline.mem_restRefs_of main_arg11 (by decide) (by decide))).trans (entry_arg11 m c),
   ((h c).2 main_arg12 (Pipeline.mem_restRefs_of main_arg12 (by decide) (by decide))).trans (entry_arg12 m c),
   ((h c).2 main_arg13 (Pipeline.mem_restRefs_of main_arg13 (by decide) (by decide))).trans (entry_arg13 m c),
   ((h c).2 main_arg14 (Pipeline.mem_restRefs_of main_arg14 (by decide) (by decide))).trans (entry_arg14 m c),
   ((h c).2 main_arg15 (Pipeline.mem_restRefs_of main_arg15 (by decide) (by decide))).trans (entry_arg15 m c),
   ((h c).2 main_arg16 (Pipeline.mem_restRefs_of main_arg16 (by decide) (by decide))).trans (entry_arg16 m c),
   ((h c).2 main_arg17 (Pipeline.mem_restRefs_of main_arg17 (by decide) (by decide))).trans (entry_arg17 m c),
   ((h c).2 main_arg18 (Pipeline.mem_restRefs_of main_arg18 (by decide) (by decide))).trans (entry_arg18 m c)⟩

/-- The frame: the program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_main m ρ)

end Cert.KernelIdeal.Cell

end
-- ==== Proof.CellSpec.lean ====
/-
  One LSTM cell step, row by row, on the extended reals.
  A row of the batch has an input row `xr` and a hidden row `hr` (1024 entries each) and a previous cell row.
  The four gates' weights are stacked along the output axis: `wx k n` and `wh k n` for input feature `k` and
  stacked output column `n < 4096`, columns `[0, 1024)` the input gate, `[1024, 2048)` the forget gate,
  `[2048, 3072)` the candidate and `[3072, 4096)` the output gate; `b n` is the stacked bias.
    pre n      = (Σ_k xr k · wx k n + Σ_k hr k · wh k n) + b n
    c' j       = σ(pre (1024 + j)) · c j + σ(pre j) · tanh(pre (2048 + j))
    h' j       = σ(pre (3072 + j)) · tanh(c' j)
  with σ the logistic function `1 / (1 + e^(-z))`, read with the extended reals' conventions at ±∞.
-/
import Idealize.ShloMosaic.PureOps.Ideal
import Idealize.ShloMosaic.Lib.ValueIdx

noncomputable section

namespace Cert.LstmCell

open Idealize.ShloMosaic

/-- Column `o + j` of the stacked gate axis: the `j`-th column of the gate whose columns start at `o`. -/
def colAt (o : Nat) (j : Fin 1024) (ho : o + 1024 ≤ 4096 := by decide) : Fin 4096 :=
  ⟨o + j.val, by have := j.isLt; omega⟩

/-- The pre-activation of stacked column `n` for one row: the two products' sum, then the bias. -/
def pre (xr hr : Fin 1024 → EReal) (wx wh : Fin 1024 → Fin 4096 → EReal) (b : Fin 4096 → EReal) (n : Fin 4096) : EReal :=
  (∑ k : Fin 1024, xr k * wx k n + ∑ k : Fin 1024, hr k * wh k n) + b n

/-- The new cell state at column `j`: forget gate times the old cell state plus input gate times candidate. -/
def cellVal (xr hr : Fin 1024 → EReal) (wx wh : Fin 1024 → Fin 4096 → EReal) (b : Fin 4096 → EReal) (cp : EReal) (j : Fin 1024) : EReal :=
  Ideal.logistic (pre xr hr wx wh b (colAt 1024 j)) * cp
    + Ideal.logistic (pre xr hr wx wh b (colAt 0 j)) * Ideal.tanh (pre xr hr wx wh b (colAt 2048 j))

/-- The new hidden state at column `j`: output gate times tanh of the new cell state. -/
def hiddenVal (xr hr : Fin 1024 → EReal) (wx wh : Fin 1024 → Fin 4096 → EReal) (b : Fin 4096 → EReal) (cp : EReal) (j : Fin 1024) : EReal :=
  Ideal.logistic (pre xr hr wx wh b (colAt 3072 j)) * Ideal.tanh (cellVal xr hr wx wh b cp j)

/-- The f32 word `0x3F800000` denotes the real number one. -/
theorem one_bits : Ideal.ofBits .f32 0x3F800000#32 = 1 := by
  simp [Ideal.ofBits, Ideal.ieee, -EReal.coe_mul]; norm_num

/-- The logistic function spelt with a quotient, a sum and an exponential of the negated argument, the two
    ones given as f32 words, is the logistic function. -/
theorem logistic_spelt (z : EReal) :
    Ideal.div (Ideal.ofBits .f32 0x3F800000#32) (Ideal.ofBits .f32 0x3F800000#32 + Ideal.exp (-z)) = Ideal.logistic z := by
  rw [one_bits]; rfl

end Cert.LstmCell

end
-- ==== Proof.CellBlock.lean ====
/-
  What the kernel body computes, one entry at a time, on the extended reals.
  The body multiplies the point's 256 input rows and 256 hidden rows with the two resident stacked weight
  matrices (both products into a zero accumulator), adds the products, adds the bias row broadcast over the
  256 rows, cuts the 4096 stacked columns into the four gates' 1024 columns, and forms the new cell and
  hidden states. At row `p` and column `q` of the block that is the cell step of `CellSpec` on row `p`:
  rounding the rows to bf16 is the identity on the extended reals, a matrix product into zero is the plain
  sum over the 1024 contracted features, a slice at column offset `o` reads column `o + q`, and the
  broadcast bias row is read at its one row.
-/
import proofs.«109990_j37099927503216_2_alg».proof.Proof.Gen.KernelIdeal.Skeleton
import proofs.«109990_j37099927503216_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellBlock

open Cert.KernelIdeal Cert.LstmCell
open Cert.KernelIdeal.Gen (k0_pay1 k0_pay2 k0_pay3)
open Idealize.ShloMosaic Idealize.ShloMosaic.ValueIdx
open Facts₀ Facts

variable [Facts]

/-- The record of the body's two matrix products: rows × 1024 features against 1024 features × 4096 columns. -/
abbrev gateDot := dot_S256x1024_S1024x4096_S256x4096_1_0_0_1_n_n

theorem lhs_row (i : S256x4096.Idx) (q : gateDot.contr.Idx) : (gateDot.lhsIdx i q 0).val = (i 0).val := by
  unfold DotDims.lhsIdx
  rw [dif_neg (show ¬(0 : Fin S256x1024.rank) ∈ gateDot.lhsBatch by decide), dif_pos (show (0 : Fin S256x1024.rank) ∈ gateDot.lhsNonContracting by decide)]
  rfl
theorem lhs_feature (i : S256x4096.Idx) (q : gateDot.contr.Idx) : (gateDot.lhsIdx i q 1).val = (q ⟨0, by decide⟩).val :=
  gateDot.lhsIdx_val_of_single rfl i q
theorem rhs_feature (i : S256x4096.Idx) (q : gateDot.contr.Idx) : (gateDot.rhsIdx i q 0).val = (q ⟨0, by decide⟩).val :=
  gateDot.rhsIdx_val_of_single rfl i q
theorem rhs_col (i : S256x4096.Idx) (q : gateDot.contr.Idx) : (gateDot.rhsIdx i q 1).val = (i 1).val := by
  unfold DotDims.rhsIdx
  rw [dif_neg (show ¬(1 : Fin S1024x4096.rank) ∈ gateDot.rhsBatch by decide), dif_pos (show (1 : Fin S1024x4096.rank) ∈ gateDot.rhsNonContracting by decide)]
  rfl

/-- A product of the body into the zero accumulator, at row `p` and stacked column `n`: the sum over the
    1024 contracted features of the left row's entry times the right column's entry. -/
theorem dot_at (l : FVec Ideal S256x1024 .bf16) (r : FVec Ideal S1024x4096 .bf16) (p : Fin 256) (n : Fin 4096) :
    matmul gateDot none l r (constant (F := Ideal) S256x4096 .f32 0x00000000#32) (ix2 p n)
      = ∑ k : Fin 1024, l (ix2 p k) * r (ix2 k n) := by
  simp only [matmul]
  rw [Ideal.matmul_constant_zero_apply, ← Equiv.sum_comp (contrEquiv1 gateDot 1024 rfl rfl).symm]
  refine Finset.sum_congr rfl fun k _ => ?_
  have hk := contrEquiv1_symm_val gateDot 1024 rfl rfl k
  have el : gateDot.lhsIdx (ix2 p n) ((contrEquiv1 gateDot 1024 rfl rfl).symm k) = ix2 p k := funext fun a => Fin.ext (by
    match a with
    | ⟨0, _⟩ => exact lhs_row _ _
    | ⟨1, _⟩ => exact (lhs_feature _ _).trans hk)
  have er : gateDot.rhsIdx (ix2 p n) ((contrEquiv1 gateDot 1024 rfl rfl).symm k) = ix2 k n := funext fun a => Fin.ext (by
    match a with
    | ⟨0, _⟩ => exact (rhs_feature _ _).trans hk
    | ⟨1, _⟩ => exact rhs_col _ _)
  rw [el, er]

/-- The 4096 stacked pre-activations of the block at row `p` and column `n`. -/
theorem gates_at (x0 h0 : Vec Ideal S256x1024 .f32) (wx wh : Vec Ideal S1024x4096 .bf16) (b : Vec Ideal S1x4096 .f32)
    (p : Fin 256) (n : Fin 4096) :
    k0_pay1 x0 h0 wx wh b (ix2 p n)
      = pre (fun k => x0 (ix2 p k)) (fun k => h0 (ix2 p k)) (fun k n => wx (ix2 k n)) (fun k n => wh (ix2 k n))
          (fun n => b (ix2 (0 : Fin 1) n)) n := by
  unfold k0_pay1
  simp only [shapeCast_self]
  show matmul gateDot none (truncf .bf16 x0 bitsLt_bf16_f32) wx (constant (F := Ideal) S256x4096 .f32 0x00000000#32) (ix2 p n)
      + matmul gateDot none (truncf .bf16 h0 bitsLt_bf16_f32) wh (constant (F := Ideal) S256x4096 .f32 0x00000000#32) (ix2 p n)
      + broadcastTo S256x4096 b broadcasts_S1x4096_S256x4096 (ix2 p n) = _
  rw [dot_at, dot_at, broadcastTo_1b_ab_apply]
  rfl

/-- The new cell state of the block at row `p` and column `q`. -/
theorem cell_at (x0 h0 c0 : Vec Ideal S256x1024 .f32) (wx wh : Vec Ideal S1024x4096 .bf16) (b : Vec Ideal S1x4096 .f32)
    (p : Fin 256) (q : Fin 1024) :
    k0_pay2 x0 h0 wx wh b c0 (ix2 p q)
      = cellVal (fun k => x0 (ix2 p k)) (fun k => h0 (ix2 p k)) (fun k n => wx (ix2 k n)) (fun k n => wh (ix2 k n))
          (fun n => b (ix2 (0 : Fin 1) n)) (c0 (ix2 p q)) q := by
  unfold k0_pay2
  show Ideal.logistic (extractStridedSlice S256x1024 ![0, 1024] (k0_pay1 x0 h0 wx wh b) slices_S256x4096_o0_1024_S256x1024 (ix2 p q)) * c0 (ix2 p q)
      + Ideal.logistic (extractStridedSlice S256x1024 ![0, 0] (k0_pay1 x0 h0 wx wh b) slices_S256x4096_o0_0_S256x1024 (ix2 p q))
        * Ideal.tanh (extractStridedSlice S256x1024 ![0, 2048] (k0_pay1 x0 h0 wx wh b) slices_S256x4096_o0_2048_S256x1024 (ix2 p q)) = _
  rw [slice2_axis1_apply 1024 _ _ p q (colAt 1024 q) rfl, slice2_axis1_apply 0 _ _ p q (colAt 0 q) rfl,
    slice2_axis1_apply 2048 _ _ p q (colAt 2048 q) rfl, gates_at, gates_at, gates_at]
  rfl

/-- The new hidden state of the block at row `p` and column `q`. -/
theorem hidden_at (x0 h0 c0 : Vec Ideal S256x1024 .f32) (wx wh : Vec Ideal S1024x4096 .bf16) (b : Vec Ideal S1x4096 .f32)
    (p : Fin 256) (q : Fin 1024) :
    k0_pay3 x0 h0 wx wh b c0 (ix2 p q)
      = hiddenVal (fun k => x0 (ix2 p k)) (fun k => h0 (ix2 p k)) (fun k n => wx (ix2 k n)) (fun k n => wh (ix2 k n))
          (fun n => b (ix2 (0 : Fin 1) n)) (c0 (ix2 p q)) q := by
  unfold k0_pay3
  show Ideal.logistic (extractStridedSlice S256x1024 ![0, 3072] (k0_pay1 x0 h0 wx wh b) slices_S256x4096_o0_3072_S256x1024 (ix2 p q))
      * Ideal.tanh (k0_pay2 x0 h0 wx wh b c0 (ix2 p q)) = _
  rw [slice2_axis1_apply 3072 _ _ p q (colAt 3072 q) rfl, gates_at, cell_at]
  rfl

end Cert.KernelIdeal.CellBlock

end
-- ==== Proof.CellArrays.lean ====
/-
  From the blocks the region writes back to the two result arrays, on the extended reals.
  Grid point `t` stages rows `[256·t, 256·t + 256)` of the input, hidden and cell arrays and the whole of the
  two transposed stacked weight matrices and of the bias row; what it writes back to the two result arrays is
  rows `[256·t, 256·t + 256)` of ONE function of the whole arrays — the cell step of `CellSpec` on each row —
  and the 32 points' row blocks cover all 8192 rows. So after the run each result array is that function of
  the arrays the region found; and the arrays the host operations wrote before the region are the transposed
  stacks of the four gates' weight matrices (rounded to bf16, which changes nothing here) and the sum of the
  two stacked bias vectors, laid out as one row.
-/
import proofs.«109990_j37099927503216_2_alg».proof.Proof.IdealFrame
import proofs.«109990_j37099927503216_2_alg».proof.Proof.CellBlock
import Idealize.ShloMosaic.Lib.Pipeline.Value
import Idealize.ShloMosaic.Lib.StableHlo.Run

set_option maxRecDepth 16384

noncomputable section

namespace Cert.KernelIdeal.CellArrays

open Cert.KernelIdeal Cert.KernelIdeal.Gen Cert.KernelIdeal.Cell Cert.KernelIdeal.CellBlock Cert.LstmCell
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The whole-array functions -/

/-- Row `r`, column `j` of the new cell state, from the whole arrays. -/
def cellArr (X H C : S8192x1024.Idx → EReal) (WX WH : S1024x4096.Idx → EReal) (B : S1x4096.Idx → EReal) : S8192x1024.Idx → EReal :=
  fun i => cellVal (fun k => X (ix2 (n0 := 8192) (i 0) k)) (fun k => H (ix2 (n0 := 8192) (i 0) k)) (fun k n => WX (ix2 k n)) (fun k n => WH (ix2 k n))
    (fun n => B (ix2 (0 : Fin 1) n)) (C i) (i 1)

/-- Row `r`, column `j` of the new hidden state, from the whole arrays. -/
def hiddenArr (X H C : S8192x1024.Idx → EReal) (WX WH : S1024x4096.Idx → EReal) (B : S1x4096.Idx → EReal) : S8192x1024.Idx → EReal :=
  fun i => hiddenVal (fun k => X (ix2 (n0 := 8192) (i 0) k)) (fun k => H (ix2 (n0 := 8192) (i 0) k)) (fun k n => WX (ix2 k n)) (fun k n => WH (ix2 k n))
    (fun n => B (ix2 (0 : Fin 1) n)) (C i) (i 1)

/-! ## The index maps over the grid -/

theorem hz : (![0, 0] : Fin 2 → Nat) = fun _ => 0 := funext fun a => by fin_cases a <;> rfl

/-- The five row-blocked windows are at block row `t`, block column 0; the three resident ones at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `256·t + p` of the array. -/
def rowOf (t : Fin cfg0.N) (p : Fin 256) : Fin 8192 :=
  ⟨t.val * 256 + p.val, by have h : t.val < 32 := lt_of_lt_of_eq t.isLt N_0; have := p.isLt; omega⟩

/-! ## The blocks read at coordinates -/

theorem blk0 (c : Dev nD) (t : Fin cfg0.N) (p : Fin 256) (k : Fin 1024) :
    blockAt m c 0 t (ix2 p k) = entry m c main_arg0 (ix2 (rowOf t p) k) := by
  obtain ⟨e0, e1, -⟩ := index_facts t
  show entry m c main_arg0 (((cfg0.win 0).blk t).view.emb (ix2 p k)) = entry m c main_arg0 (ix2 (rowOf t p) k)
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem blk1 (c : Dev nD) (t : Fin cfg0.N) (p : Fin 256) (k : Fin 1024) :
    blockAt m c 1 t (ix2 p k) = entry m c main_arg1 (ix2 (rowOf t p) k) := by
  obtain ⟨-, -, e0, e1, -⟩ := index_facts t
  show entry m c main_arg1 (((cfg0.win 1).blk t).view.emb (ix2 p k)) = entry m c main_arg1 (ix2 (rowOf t p) k)
  refine congrArg _ (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem blk2 (c : Dev nD) (t : Fin cfg0.N) (p : Fin 256) (k : Fin 1024) :
    blockAt m c 2 t (ix2 p k) = entry m c main_arg2 (ix2 (rowOf t p) k) := by
  obtain ⟨-, -, -, -, e0, e1, -⟩ := index_facts t
  show entry m c main_arg2 (((cfg0.win 2).blk t).view.emb (ix2 p k)) = entry m c main_arg2 (ix2 (rowOf t p) k)
  refine congrArg _ (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The resident windows' one block is the whole array. -/
theorem blk3 (c : Dev nD) (t : Fin cfg0.N) (k : Fin 1024) (n : Fin 4096) :
    blockAt m c 3 t (ix2 k n) = entry m c main_v7 (ix2 k n) := by
  obtain ⟨-, -, -, -, -, -, e0, e1, -⟩ := index_facts t
  show entry m c main_v7 (((cfg0.win 3).blk t).view.emb (ix2 k n)) = entry m c main_v7 (ix2 k n)
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 4096 + 1 * n.val = n.val; rw [e1]; omega

theorem blk4 (c : Dev nD) (t : Fin cfg0.N) (k : Fin 1024) (n : Fin 4096) :
    blockAt m c 4 t (ix2 k n) = entry m c main_v9 (ix2 k n) := by
  obtain ⟨-, -, -, -, -, -, -, -, e0, e1, -⟩ := index_facts t
  show entry m c main_v9 (((cfg0.win 4).blk t).view.emb (ix2 k n)) = entry m c main_v9 (ix2 k n)
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 4096 + 1 * n.val = n.val; rw [e1]; omega

theorem blk5 (c : Dev nD) (t : Fin cfg0.N) (n : Fin 4096) :
    blockAt m c 5 t (ix2 (0 : Fin 1) n) = entry m c main_v5 (ix2 (0 : Fin 1) n) := by
  obtain ⟨-, -, -, -, -, -, -, -, -, -, e0, e1, -⟩ := index_facts t
  show entry m c main_v5 (((cfg0.win 5).blk t).view.emb (ix2 (0 : Fin 1) n)) = entry m c main_v5 (ix2 (0 : Fin 1) n)
  refine congrArg _ (funext fun a => Fin.ext ?_)
  match a with
  | ⟨0, _⟩ => show win0_5.index t (0 : Fin 2) * 1 + 1 * 0 = 0; rw [e0]
  | ⟨1, _⟩ => show win0_5.index t (1 : Fin 2) * 4096 + 1 * n.val = n.val; rw [e1]; omega

/-- Entry (p, q) of a result window's block at point `t` is entry (256·t + p, q) of its array. -/
theorem emb6 (t : Fin cfg0.N) (p : Fin 256) (q : Fin 1024) :
    ((cfg0.win 6).blk t).view.emb (ix2 p q) = (ix2 (rowOf t p) q : S8192x1024.Idx) := by
  obtain ⟨-, -, -, -, -, -, -, -, -, -, -, -, e0, e1, -⟩ := index_facts t
  refine funext fun a => Fin.ext ?_
  match a with
  | ⟨0, _⟩ => show win0_6.index t (0 : Fin 2) * 256 + 1 * p.val = t.val * 256 + p.val; rw [e0]; omega
  | ⟨1, _⟩ => show win0_6.index t (1 : Fin 2) * 1024 + 1 * q.val = q.val; rw [e1]; omega

theorem emb7 (t : Fin cfg0.N) (p : Fin 256) (q : Fin 1024) :
    ((cfg0.win 7).blk t).view.emb (ix2 p q) = (ix2 (rowOf t p) q : S8192x1024.Idx) := by
  obtain ⟨-, -, -, -, -, -, -, -, -, -, -, -, -, -, e0, e1⟩ := index_facts t
  refine funext fun a => Fin.ext ?_
  match a with
  | ⟨0, _⟩ => show win0_7.index t (0 : Fin 2) * 256 + 1 * p.val = t.val * 256 + p.val; rw [e0]; omega
  | ⟨1, _⟩ => show win0_7.index t (1 : Fin 2) * 1024 + 1 * q.val = q.val; rw [e1]; omega

/-! ## What the host operations left in the three arrays they wrote for the region -/

/-- Four gate matrices stacked along the output axis, then transposed: features × stacked columns. -/
def stackT (a b c d : (⟨S1024x1024, .f32⟩ : BufTy).Contents (Elt Ideal)) : S1024x4096.Idx → EReal :=
  transpose S1024x4096 [1, 0] (concatenate S4096x1024 0 [⟨S1024x1024, a⟩, ⟨S1024x1024, b⟩, ⟨S1024x1024, c⟩, ⟨S1024x1024, d⟩]
    concatenates_S1024x1024_S1024x1024_S1024x1024_S1024x1024_S4096x1024_d0) transposes_S4096x1024_S1024x4096_1_0

/-- The two stacked bias vectors, added. -/
def biasSum (a1 a2 a3 a4 b1 b2 b3 b4 : (⟨S1024, .f32⟩ : BufTy).Contents (Elt Ideal)) : S4096.Idx → EReal :=
  addf (F := Ideal) (φ := .f32) (concatenate S4096 0 [⟨S1024, a1⟩, ⟨S1024, a2⟩, ⟨S1024, a3⟩, ⟨S1024, a4⟩] concatenates_S1024_S1024_S1024_S1024_S4096_d0)
    (concatenate S4096 0 [⟨S1024, b1⟩, ⟨S1024, b2⟩, ⟨S1024, b3⟩, ⟨S1024, b4⟩] concatenates_S1024_S1024_S1024_S1024_S4096_d0)

/-- The input-to-hidden weights the region finds: the transposed stack (rounding to bf16 is the identity here). -/
theorem entry_wx (c : Dev nD) : (entry m c main_v7 : S1024x4096.Idx → EReal)
    = stackT (m ((c : Thread nD τ).loc main_arg3)) (m ((c : Thread nD τ).loc main_arg5)) (m ((c : Thread nD τ).loc main_arg7)) (m ((c : Thread nD τ).loc main_arg9)) := by
  dsimp only [entry, hostOps0]; after_results; rfl

/-- The hidden-to-hidden weights the region finds. -/
theorem entry_wh (c : Dev nD) : (entry m c main_v9 : S1024x4096.Idx → EReal)
    = stackT (m ((c : Thread nD τ).loc main_arg4)) (m ((c : Thread nD τ).loc main_arg6)) (m ((c : Thread nD τ).loc main_arg8)) (m ((c : Thread nD τ).loc main_arg10)) := by
  dsimp only [entry, hostOps0]; after_results; rfl

/-- The bias row the region finds: the summed stacked bias laid out as one row of 4096. -/
theorem entry_bias (c : Dev nD) : (entry m c main_v5 : S1x4096.Idx → EReal)
    = shapeCast S1x4096 (biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18))) shapeCasts_S4096_S1x4096 := by
  dsimp only [entry, hostOps0]
  after_results_simp
  all_goals first | rfl | fail "bias: rfl does not close it"

theorem entry_bias_at (c : Dev nD) (n : Fin 4096) : entry m c main_v5 (ix2 (0 : Fin 1) n)
    = biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18)) (ix1 n) := by
  rw [entry_bias]
  exact shapeCast_a_1a_apply _ _ 0 n

/-! ## What each point writes back is a row block of one whole-array function -/

theorem flushed7_eq (c : Dev nD) (t : Fin cfg0.N) :
    (dats m 0 c).flushed 7 t = ((cfg0.win 7).blk t).view.read (Elt Ideal) (cellArr (entry m c main_arg0) (entry m c main_arg1) (entry m c main_arg2) (entry m c main_v7) (entry m c main_v9)
      (entry m c main_v5)) := by
  show (cfg0.win 7).cut (grid0.coords t) ((dats m 0 c).after 7 t) = _
  rw [after7]
  unfold cellOut
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay2 (blockAt m c 0 t) (blockAt m c 1 t) (blockAt m c 3 t) (blockAt m c 4 t) (blockAt m c 5 t) (blockAt m c 2 t) (ix2 p q)
      = cellArr (entry m c main_arg0) (entry m c main_arg1) (entry m c main_arg2) (entry m c main_v7) (entry m c main_v9)
      (entry m c main_v5) (((cfg0.win 7).blk t).view.emb (ix2 p q))
  rw [cell_at, emb7 t p q]
  unfold cellArr
  simp only [blk0, blk1, blk2, blk3, blk4, blk5]

theorem flushed6_eq (c : Dev nD) (t : Fin cfg0.N) :
    (dats m 0 c).flushed 6 t = ((cfg0.win 6).blk t).view.read (Elt Ideal) (hiddenArr (entry m c main_arg0) (entry m c main_arg1) (entry m c main_arg2) (entry m c main_v7) (entry m c main_v9)
      (entry m c main_v5)) := by
  show (cfg0.win 6).cut (grid0.coords t) ((dats m 0 c).after 6 t) = _
  rw [after6]
  unfold hiddenOut
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay3 (blockAt m c 0 t) (blockAt m c 1 t) (blockAt m c 3 t) (blockAt m c 4 t) (blockAt m c 5 t) (blockAt m c 2 t) (ix2 p q)
      = hiddenArr (entry m c main_arg0) (entry m c main_arg1) (entry m c main_arg2) (entry m c main_v7) (entry m c main_v9)
      (entry m c main_v5) (((cfg0.win 6).blk t).view.emb (ix2 p q))
  rw [hidden_at, emb6 t p q]
  unfold hiddenArr
  simp only [blk0, blk1, blk2, blk3, blk4, blk5]

/-! ## The 32 row blocks cover the result arrays -/

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- The point whose block holds row `r`: `r / 256`. -/
def pointOf (i : S8192x1024.Idx) : Fin cfg0.N :=
  ⟨(i 0).val / 256, by have h : (i 0).val < 8192 := (i 0).isLt; rw [show cfg0.N = 32 from N_0]; omega⟩

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨-, -, -, -, -, -, -, -, -, -, -, -, e0, e1, -⟩ := index_facts (pointOf i)
  have ht : (pointOf i).val = (i 0).val / 256 := rfl
  refine ⟨pointOf i, flush0_6 _, ?_⟩
  rw [mem_blk6]
  intro a
  match a with
  | ⟨0, _⟩ => show win0_6.index (pointOf i) (0 : Fin 2) * 256 ≤ (i 0).val ∧ (i 0).val < win0_6.index (pointOf i) (0 : Fin 2) * 256 + 256; rw [e0, ht]; omega
  | ⟨1, _⟩ => show win0_6.index (pointOf i) (1 : Fin 2) * 1024 ≤ (i 1).val ∧ (i 1).val < win0_6.index (pointOf i) (1 : Fin 2) * 1024 + 1024; rw [e1]; omega

theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨-, -, -, -, -, -, -, -, -, -, -, -, -, -, e0, e1⟩ := index_facts (pointOf i)
  have ht : (pointOf i).val = (i 0).val / 256 := rfl
  refine ⟨pointOf i, flush0_7 _, ?_⟩
  rw [mem_blk7]
  intro a
  match a with
  | ⟨0, _⟩ => show win0_7.index (pointOf i) (0 : Fin 2) * 256 ≤ (i 0).val ∧ (i 0).val < win0_7.index (pointOf i) (0 : Fin 2) * 256 + 256; rw [e0, ht]; omega
  | ⟨1, _⟩ => show win0_7.index (pointOf i) (1 : Fin 2) * 1024 ≤ (i 1).val ∧ (i 1).val < win0_7.index (pointOf i) (1 : Fin 2) * 1024 + 1024; rw [e1]; omega

/-! ## The result arrays after the run -/

/-- The hidden-state array ends at the cell step's hidden state of every row. -/
theorem hidden_final (c : Dev nD) : (dats m 0 c).arrAt 6 cfg0.N = hiddenArr (m ((c : Thread nD τ).loc main_arg0)) (m ((c : Thread nD τ).loc main_arg1)) (m ((c : Thread nD τ).loc main_arg2))
      (stackT (m ((c : Thread nD τ).loc main_arg3)) (m ((c : Thread nD τ).loc main_arg5)) (m ((c : Thread nD τ).loc main_arg7)) (m ((c : Thread nD τ).loc main_arg9)))
      (stackT (m ((c : Thread nD τ).loc main_arg4)) (m ((c : Thread nD τ).loc main_arg6)) (m ((c : Thread nD τ).loc main_arg8)) (m ((c : Thread nD τ).loc main_arg10)))
      (shapeCast S1x4096 (biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18))) shapeCasts_S4096_S1x4096) := by
  rw [(dats m 0 c).arrAt_eq_of_cover 6 (hiddenArr (entry m c main_arg0) (entry m c main_arg1) (entry m c main_arg2) (entry m c main_v7) (entry m c main_v9)
      (entry m c main_v5)) (fun t _ => flushed6_eq m c t) cover6,
    entry_arg0, entry_arg1, entry_arg2, entry_wx, entry_wh, entry_bias]

/-- The cell-state array ends at the cell step's cell state of every row. -/
theorem cell_final (c : Dev nD) : (dats m 0 c).arrAt 7 cfg0.N = cellArr (m ((c : Thread nD τ).loc main_arg0)) (m ((c : Thread nD τ).loc main_arg1)) (m ((c : Thread nD τ).loc main_arg2))
      (stackT (m ((c : Thread nD τ).loc main_arg3)) (m ((c : Thread nD τ).loc main_arg5)) (m ((c : Thread nD τ).loc main_arg7)) (m ((c : Thread nD τ).loc main_arg9)))
      (stackT (m ((c : Thread nD τ).loc main_arg4)) (m ((c : Thread nD τ).loc main_arg6)) (m ((c : Thread nD τ).loc main_arg8)) (m ((c : Thread nD τ).loc main_arg10)))
      (shapeCast S1x4096 (biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18))) shapeCasts_S4096_S1x4096) := by
  rw [(dats m 0 c).arrAt_eq_of_cover 7 (cellArr (entry m c main_arg0) (entry m c main_arg1) (entry m c main_arg2) (entry m c main_v7) (entry m c main_v9)
      (entry m c main_v5)) (fun t _ => flushed7_eq m c t) cover7,
    entry_arg0, entry_arg1, entry_arg2, entry_wx, entry_wh, entry_bias]

/-- The run of the idealized kernel program: both results as functions of the arguments, the arguments unchanged. -/
theorem run : θ_run defs (onTc (τ := τ) (main (F := Ideal))) ⟨m, fun _ => 0, ρ⟩ fun r => ∀ c : Dev nD,
      r.2.mem ((c : Thread nD τ).loc main_v10_0) = hiddenArr (m ((c : Thread nD τ).loc main_arg0)) (m ((c : Thread nD τ).loc main_arg1)) (m ((c : Thread nD τ).loc main_arg2))
      (stackT (m ((c : Thread nD τ).loc main_arg3)) (m ((c : Thread nD τ).loc main_arg5)) (m ((c : Thread nD τ).loc main_arg7)) (m ((c : Thread nD τ).loc main_arg9)))
      (stackT (m ((c : Thread nD τ).loc main_arg4)) (m ((c : Thread nD τ).loc main_arg6)) (m ((c : Thread nD τ).loc main_arg8)) (m ((c : Thread nD τ).loc main_arg10)))
      (shapeCast S1x4096 (biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18))) shapeCasts_S4096_S1x4096)
      ∧ r.2.mem ((c : Thread nD τ).loc main_v10_1) = cellArr (m ((c : Thread nD τ).loc main_arg0)) (m ((c : Thread nD τ).loc main_arg1)) (m ((c : Thread nD τ).loc main_arg2))
      (stackT (m ((c : Thread nD τ).loc main_arg3)) (m ((c : Thread nD τ).loc main_arg5)) (m ((c : Thread nD τ).loc main_arg7)) (m ((c : Thread nD τ).loc main_arg9)))
      (stackT (m ((c : Thread nD τ).loc main_arg4)) (m ((c : Thread nD τ).loc main_arg6)) (m ((c : Thread nD τ).loc main_arg8)) (m ((c : Thread nD τ).loc main_arg10)))
      (shapeCast S1x4096 (biasSum (m ((c : Thread nD τ).loc main_arg11)) (m ((c : Thread nD τ).loc main_arg13)) (m ((c : Thread nD τ).loc main_arg15)) (m ((c : Thread nD τ).loc main_arg17))
        (m ((c : Thread nD τ).loc main_arg12)) (m ((c : Thread nD τ).loc main_arg14)) (m ((c : Thread nD τ).loc main_arg16)) (m ((c : Thread nD τ).loc main_arg18))) shapeCasts_S4096_S1x4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (hidden_final m c), ((h c).1 7).trans (cell_final m c), args_kept m r h c⟩)
    (run_main m ρ)

end Cert.KernelIdeal.CellArrays

end
-- ==== Proof.CellRef.lean ====
/-
  The jnp reference, read one entry at a time on the extended reals, is the cell step of `CellSpec`.
  It multiplies the whole batch with the two transposed stacked weight matrices, adds the two products and
  the summed stacked bias broadcast over the rows, cuts the 4096 columns into the four gates, and spells
  each logistic function as `1 / (1 + exp(-z))` with the ones given as f32 words. At row `r` and column `j`
  the two results are `cellVal` and `hiddenVal` on row `r` of the inputs, the weights read off the transposed
  stacked matrices and the bias off the summed stacked vector.
-/
import proofs.«109990_j37099927503216_2_alg».proof.Proof.Gen.ReferenceIdeal.Read
import proofs.«109990_j37099927503216_2_alg».proof.Proof.CellSpec

noncomputable section

namespace Cert.ReferenceIdeal.CellRef

open Cert.ReferenceIdeal Cert.ReferenceIdeal.Read Cert.LstmCell
open Idealize.ShloMosaic Idealize.ShloMosaic.ValueIdx

variable [Facts]

/-! ## The index functions of the reference's layout operations, at coordinates -/

theorem lrow5 (r : Fin 8192) (n : Fin 4096) (k : Fin 1024) : lidx_main_v5 (ix2 r n) k = ix2 r k :=
  funext fun a => Fin.ext (by match a with | ⟨0, _⟩ => rfl | ⟨1, _⟩ => rfl)
theorem rcol5 (r : Fin 8192) (n : Fin 4096) (k : Fin 1024) : ridx_main_v5 (ix2 r n) k = ix2 k n :=
  funext fun a => Fin.ext (by match a with | ⟨0, _⟩ => rfl | ⟨1, _⟩ => rfl)
theorem lrow7 (r : Fin 8192) (n : Fin 4096) (k : Fin 1024) : lidx_main_v7 (ix2 r n) k = ix2 r k :=
  funext fun a => Fin.ext (by match a with | ⟨0, _⟩ => rfl | ⟨1, _⟩ => rfl)
theorem rcol7 (r : Fin 8192) (n : Fin 4096) (k : Fin 1024) : ridx_main_v7 (ix2 r n) k = ix2 k n :=
  funext fun a => Fin.ext (by match a with | ⟨0, _⟩ => rfl | ⟨1, _⟩ => rfl)
theorem biasCol (r : Fin 8192) (n : Fin 4096) : idx_main_v10 (idx_main_v11 (ix2 r n)) = ix1 n :=
  funext fun a => Fin.ext (by match a with | ⟨0, _⟩ => rfl)
theorem gateI (r : Fin 8192) (j : Fin 1024) : idx_main_v13 (ix2 r j) = ix2 r (colAt 0 j) :=
  funext fun a => Fin.ext (by match a with | ⟨0, _⟩ => rfl | ⟨1, _⟩ => exact (Nat.zero_add _).symm)
theorem gateF (r : Fin 8192) (j : Fin 1024) : idx_main_v14 (ix2 r j) = ix2 r (colAt 1024 j) :=
  funext fun a => Fin.ext (by match a with | ⟨0, _⟩ => rfl | ⟨1, _⟩ => rfl)
theorem gateG (r : Fin 8192) (j : Fin 1024) : idx_main_v15 (ix2 r j) = ix2 r (colAt 2048 j) :=
  funext fun a => Fin.ext (by match a with | ⟨0, _⟩ => rfl | ⟨1, _⟩ => rfl)
theorem gateO (r : Fin 8192) (j : Fin 1024) : idx_main_v16 (ix2 r j) = ix2 r (colAt 3072 j) :=
  funext fun a => Fin.ext (by match a with | ⟨0, _⟩ => rfl | ⟨1, _⟩ => rfl)

/-! ## The stacked pre-activations -/

/-- The reference's 8192 × 4096 pre-activations at row `r` and stacked column `n`. -/
theorem gate_ref (x0 x1 : (⟨S8192x1024, .f32⟩ : BufTy).Contents (Elt Ideal)) (x3 x4 x5 x6 x7 x8 x9 x10 : (⟨S1024x1024, .f32⟩ : BufTy).Contents (Elt Ideal)) (x11 x12 x13 x14 x15 x16 x17 x18 : (⟨S1024, .f32⟩ : BufTy).Contents (Elt Ideal)) (r : Fin 8192) (n : Fin 4096) :
    val_main_v12 (F := Ideal) x0 x1 x3 x4 x5 x6 x7 x8 x9 x10 x11 x12 x13 x14 x15 x16 x17 x18 (ix2 r n)
      = pre (fun k => x0 (ix2 r k)) (fun k => x1 (ix2 r k))
          (fun k n => val_main_v4 (F := Ideal) x3 x5 x7 x9 (ix2 k n)) (fun k n => val_main_v6 (F := Ideal) x4 x6 x8 x10 (ix2 k n))
          (fun n => val_main_v9 (F := Ideal) x11 x12 x13 x14 x15 x16 x17 x18 (ix1 n)) n := by
  rw [val_main_v12_apply, val_main_v8_apply, val_main_v5_apply, val_main_v7_apply, val_main_v11_apply, val_main_v10_apply, biasCol]
  simp only [lrow5, rcol5, lrow7, rcol7]
  rfl

/-! ## The two results -/

/-- The reference's new cell state at row `r` and column `j`. -/
theorem cell_ref (x0 x1 x2 : (⟨S8192x1024, .f32⟩ : BufTy).Contents (Elt Ideal)) (x3 x4 x5 x6 x7 x8 x9 x10 : (⟨S1024x1024, .f32⟩ : BufTy).Contents (Elt Ideal)) (x11 x12 x13 x14 x15 x16 x17 x18 : (⟨S1024, .f32⟩ : BufTy).Contents (Elt Ideal)) (r : Fin 8192) (j : Fin 1024) :
    val_main_v38 (F := Ideal) x0 x1 x2 x3 x4 x5 x6 x7 x8 x9 x10 x11 x12 x13 x14 x15 x16 x17 x18 (ix2 r j)
      = cellVal (fun k => x0 (ix2 r k)) (fun k => x1 (ix2 r k))
          (fun k n => val_main_v4 (F := Ideal) x3 x5 x7 x9 (ix2 k n)) (fun k n => val_main_v6 (F := Ideal) x4 x6 x8 x10 (ix2 k n))
          (fun n => val_main_v9 (F := Ideal) x11 x12 x13 x14 x15 x16 x17 x18 (ix1 n)) (x2 (ix2 r j)) j := by
  simp only [val_main_v38_apply, val_main_v36_apply, val_main_v37_apply, val_main_v28_apply, val_main_v27_apply, val_main_cst_2_apply,
    val_main_v26_apply, val_main_v25_apply, val_main_cst_1_apply, val_main_v24_apply, val_main_v23_apply, val_main_v14_apply,
    val_main_v22_apply, val_main_v21_apply, val_main_cst_0_apply, val_main_v20_apply, val_main_v19_apply, val_main_cst_apply,
    val_main_v18_apply, val_main_v17_apply, val_main_v13_apply, val_main_v29_apply, val_main_v15_apply,
    gateI, gateF, gateG, gate_ref]
  simp only [Ideal.hostDivf_def, Ideal.hostUnary_exp_def, Ideal.hostUnary_tanh_def, Ideal.hostNegf_def, Ideal.negf_def, Ideal.ofBits_def,
    Ideal.addf_def, Ideal.mulf_def, logistic_spelt]
  rfl

/-- The reference's new hidden state at row `r` and column `j`. -/
theorem hidden_ref (x0 x1 x2 : (⟨S8192x1024, .f32⟩ : BufTy).Contents (Elt Ideal)) (x3 x4 x5 x6 x7 x8 x9 x10 : (⟨S1024x1024, .f32⟩ : BufTy).Contents (Elt Ideal)) (x11 x12 x13 x14 x15 x16 x17 x18 : (⟨S1024, .f32⟩ : BufTy).Contents (Elt Ideal)) (r : Fin 8192) (j : Fin 1024) :
    val_main_v40 (F := Ideal) x0 x1 x2 x3 x4 x5 x6 x7 x8 x9 x10 x11 x12 x13 x14 x15 x16 x17 x18 (ix2 r j)
      = hiddenVal (fun k => x0 (ix2 r k)) (fun k => x1 (ix2 r k))
          (fun k n => val_main_v4 (F := Ideal) x3 x5 x7 x9 (ix2 k n)) (fun k n => val_main_v6 (F := Ideal) x4 x6 x8 x10 (ix2 k n))
          (fun n => val_main_v9 (F := Ideal) x11 x12 x13 x14 x15 x16 x17 x18 (ix1 n)) (x2 (ix2 r j)) j := by
  rw [val_main_v40_apply, val_main_v39_apply, cell_ref]
  simp only [val_main_v35_apply, val_main_v34_apply, val_main_cst_4_apply, val_main_v33_apply, val_main_v32_apply, val_main_cst_3_apply,
    val_main_v31_apply, val_main_v30_apply, val_main_v16_apply, gateO, gate_ref]
  simp only [Ideal.hostDivf_def, Ideal.hostUnary_exp_def, Ideal.hostUnary_tanh_def, Ideal.hostNegf_def, Ideal.negf_def, Ideal.ofBits_def,
    Ideal.addf_def, Ideal.mulf_def, logistic_spelt]
  rfl

end Cert.ReferenceIdeal.CellRef

end
-- ==== Proof.lean ====
/-
  An LSTM cell step over a batch of 8192 rows: a Pallas kernel that fuses the eight small linear maps into two
  bf16 matrix products per block of 256 rows and applies the gates in the same body, against the jnp reference
  that forms the whole 8192 × 4096 pre-activation matrix at once.

  On the extended reals the two programs compute the same function of the nineteen arguments, entry by entry:
  for row r and hidden column j,
      pre n = (Σ_k x[r,k] · Wx[n,k] + Σ_k h[r,k] · Wh[n,k]) + (bx[n] + bh[n])        (n a stacked gate column)
      c'[r,j] = σ(pre(1024 + j)) · c[r,j] + σ(pre j) · tanh(pre(2048 + j))
      h'[r,j] = σ(pre(3072 + j)) · tanh(c'[r,j])
  where Wx, Wh, bx, bh are the four gates' weights and biases stacked in the order input, forget, candidate,
  output. Both programs stack and transpose the weights with the same host operations; the kernel's rounding of
  its matrix operands to bf16 is the identity here, its products into a zero accumulator are the plain sums the
  reference's `dot_general` denotes, with the same order of the three summands, so no law beyond the definitions
  is used and finiteness of the inputs is never opened. The kernel's logistic operation and the reference's
  spelling `1 / (1 + exp(-z))` are one function of an extended real.

  The kernel program's two frames (as compiled and idealized) are the pipelined launch over 32 row blocks
  after ten host operations (BitsFrame, IdealFrame); the reference's frame is its run with the results dropped.
  The idealizing pass rewrote nothing, so there is nothing to preserve.
-/
import proofs.«109990_j37099927503216_2_alg».proof.Defs
import proofs.«109990_j37099927503216_2_alg».proof.Proof.Gen.Kernel
import proofs.«109990_j37099927503216_2_alg».proof.Proof.Gen.KernelIdeal
import proofs.«109990_j37099927503216_2_alg».proof.Proof.Gen.ReferenceIdeal
import proofs.«109990_j37099927503216_2_alg».proof.Proof.Gen.Pre_finite_inputs
import proofs.«109990_j37099927503216_2_alg».proof.Proof.Gen.ReferenceIdeal.Run
import proofs.«109990_j37099927503216_2_alg».proof.Proof.Gen.ReferenceIdeal.Read
import proofs.«109990_j37099927503216_2_alg».proof.Proof.BitsFrame
import proofs.«109990_j37099927503216_2_alg».proof.Proof.CellArrays
import proofs.«109990_j37099927503216_2_alg».proof.Proof.CellRef

noncomputable section

namespace Cert.Proof

open Idealize.ShloMosaic Idealize.ShloMosaic.TcCoe Idealize.ShloMosaic.ValueIdx Idealize.SL.Sem
open Cert.KernelIdeal.CellArrays Cert.ReferenceIdeal.Read Cert.LstmCell

/-! ## The two programs' weights and bias are the same terms of the arguments -/

theorem stack_x (a b c d : (⟨Cert.ReferenceIdeal.S1024x1024, .f32⟩ : BufTy).Contents (Elt Ideal)) :
    val_main_v4 (F := Ideal) a b c d = stackT a b c d := rfl
theorem stack_h (a b c d : (⟨Cert.ReferenceIdeal.S1024x1024, .f32⟩ : BufTy).Contents (Elt Ideal)) :
    val_main_v6 (F := Ideal) a b c d = stackT a b c d := rfl
theorem bias_both (x11 x12 x13 x14 x15 x16 x17 x18 : (⟨Cert.ReferenceIdeal.S1024, .f32⟩ : BufTy).Contents (Elt Ideal)) :
    val_main_v9 (F := Ideal) x11 x12 x13 x14 x15 x16 x17 x18 = biasSum x11 x13 x15 x17 x12 x14 x16 x18 := rfl

/-! ## The reference's two results are the kernel's two whole-array functions -/

theorem hidden_bridge (x0 x1 x2 : (⟨Cert.ReferenceIdeal.S8192x1024, .f32⟩ : BufTy).Contents (Elt Ideal)) (x3 x4 x5 x6 x7 x8 x9 x10 : (⟨Cert.ReferenceIdeal.S1024x1024, .f32⟩ : BufTy).Contents (Elt Ideal)) (x11 x12 x13 x14 x15 x16 x17 x18 : (⟨Cert.ReferenceIdeal.S1024, .f32⟩ : BufTy).Contents (Elt Ideal)) :
    val_main_v40 (F := Ideal) x0 x1 x2 x3 x4 x5 x6 x7 x8 x9 x10 x11 x12 x13 x14 x15 x16 x17 x18 = hiddenArr x0 x1 x2 (stackT x3 x5 x7 x9) (stackT x4 x6 x8 x10) (shapeCast Cert.KernelIdeal.S1x4096 (biasSum x11 x13 x15 x17 x12 x14 x16 x18) Cert.KernelIdeal.Gen.shapeCasts_S4096_S1x4096) := by
  funext i
  obtain ⟨r, j, rfl⟩ : ∃ (r : Fin 8192) (j : Fin 1024), i = ix2 r j := ⟨i 0, i 1, eq_ix2 i⟩
  rw [Cert.ReferenceIdeal.CellRef.hidden_ref, stack_x, stack_h, bias_both]
  unfold hiddenArr
  simp only [shapeCast_a_1a_apply]

theorem cell_bridge (x0 x1 x2 : (⟨Cert.ReferenceIdeal.S8192x1024, .f32⟩ : BufTy).Contents (Elt Ideal)) (x3 x4 x5 x6 x7 x8 x9 x10 : (⟨Cert.ReferenceIdeal.S1024x1024, .f32⟩ : BufTy).Contents (Elt Ideal)) (x11 x12 x13 x14 x15 x16 x17 x18 : (⟨Cert.ReferenceIdeal.S1024, .f32⟩ : BufTy).Contents (Elt Ideal)) :
    val_main_v38 (F := Ideal) x0 x1 x2 x3 x4 x5 x6 x7 x8 x9 x10 x11 x12 x13 x14 x15 x16 x17 x18 = cellArr x0 x1 x2 (stackT x3 x5 x7 x9) (stackT x4 x6 x8 x10) (shapeCast Cert.KernelIdeal.S1x4096 (biasSum x11 x13 x15 x17 x12 x14 x16 x18) Cert.KernelIdeal.Gen.shapeCasts_S4096_S1x4096) := by
  funext i
  obtain ⟨r, j, rfl⟩ : ∃ (r : Fin 8192) (j : Fin 1024), i = ix2 r j := ⟨i 0, i 1, eq_ix2 i⟩
  rw [Cert.ReferenceIdeal.CellRef.cell_ref, stack_x, stack_h, bias_both]
  unfold cellArr
  simp only [shapeCast_a_1a_apply]

/-! ## The claims -/

theorem frame_k : Cert.frame_Kernel := fun m ρ _ => Cert.Kernel.Cell.frame m ρ
theorem frame_ki : Cert.frame_KernelIdeal := fun m ρ _ => Cert.KernelIdeal.Cell.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the cell step's hidden and cell states of every row of arguments that agree. -/
theorem algebraic : Cert.algebraic_KernelIdeal_ReferenceIdeal := by
  intro m ρ m' ρ' _ hagree
  refine ⟨_, _, Cert.KernelIdeal.CellArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [val_main_v40_eq]
    simp only [a0, a1, a2, a3, a4, a5, a6, a7, a8, a9, a10, a11, a12, a13, a14, a15, a16, a17, a18]
    exact hidden_bridge _ _ _ _ _ _ _ _ _ _ _ _ _ _ _ _ _ _ _
  · obtain ⟨a0, a1, a2, a3, a4, a5, a6, a7, a8, a9, a10, a11, a12, a13, a14, a15, a16, a17, a18⟩ := hagree c
    rw [val_main_v38_eq]
    simp only [a0, a1, a2, a3, a4, a5, a6, a7, a8, a9, a10, a11, a12, a13, a14, a15, a16, a17, a18]
    exact cell_bridge _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
